-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x3 : Shape := ⟨2, ![256, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S256x3 .f32) (main_arg6 : FVec F S3 .f32) (main_arg7 : FVec F S256x3 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x3 .f32 := Host.absf main_arg5
  let main_cst_6 : FVec F S_ .f32 := constant S_ .f32 0x7F800000#32
  let main_v20 : FVec F S256x3 .f32 := broadcastInDim S256x3 ![] bcast_S_S256x3 main_cst_6
  let main_v21 : IVec S256x3 1 := cmpf .olt main_v19 main_v20
  let main_c_7 : IVec S_ 1 := constantI S_ 1 1#1
  let main_v22 : IVec S_ 1 := (fun x v => Host.reduce IntOp.andi x v reducesTo_S256x3_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S256x3 .f32 := Host.absf main_arg7
  let main_cst_10 : FVec F S_ .f32 := constant S_ .f32 0x7F800000#32
  let main_v30 : FVec F S256x3 .f32 := broadcastInDim S256x3 ![] bcast_S_S256x3 main_cst_10
  let main_v31 : IVec S256x3 1 := cmpf .olt main_v29 main_v30
  let main_c_11 : IVec S_ 1 := constantI S_ 1 1#1
  let main_v32 : IVec S_ 1 := (fun x v => Host.reduce IntOp.andi x v reducesTo_S256x3_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x256 .f32) (main_arg3 : FVec F S256 .f32) (main_arg4 : FVec F S128x256 .f32) (main_arg5 : FVec F S256x3 .f32) (main_arg6 : FVec F S3 .f32) (main_arg7 : FVec F S256x3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x3 : Shape := ⟨2, ![256, 3]⟩
abbrev S3 : Shape := ⟨1, ![3]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S640000x256 : Shape := ⟨2, ![640000, 256]⟩
abbrev S1x3 : Shape := ⟨2, ![1, 3]⟩
abbrev S50000x3 : Shape := ⟨2, ![50000, 3]⟩
abbrev S2000x3 : Shape := ⟨2, ![2000, 3]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x3, .f32⟩
  | .hbm, ⟨6, _⟩ => ⟨S3, .f32⟩
  | .hbm, ⟨7, _⟩ => ⟨S256x3, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x256, .f32⟩
  | .hbm, ⟨48, _⟩ => ⟨S_, .f32⟩
  | .hbm, ⟨49, _⟩ => ⟨S50000x256, .f32⟩
  | .hbm, ⟨50, _⟩ => ⟨S640000x1, .i32⟩
  | .hbm, ⟨51, _⟩ => ⟨S50000x256, .f32⟩
  | .hbm, ⟨52, _⟩ => ⟨S_, .f32⟩
  | .hbm, ⟨53, _⟩ => ⟨S640000, .f32⟩
  | .hbm, ⟨54, _⟩ => ⟨S_, .f32⟩
  | .hbm, ⟨55, _⟩ => ⟨S50000, .f32⟩
  | .hbm, ⟨56, _⟩ => ⟨S640000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S1x3, .f32⟩
  | .hbm, ⟨65, _⟩ => ⟨S50000x3, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x3, .f32⟩
  | .local _ .vmem, ⟨14, _⟩ => ⟨S1x3, .f32⟩
  | .local _ .vmem, ⟨15, _⟩ => ⟨S256x3, .f32⟩
  | .local _ .vmem, ⟨16, _⟩ => ⟨S2000x3, .f32⟩
  | .local _ .vmem, ⟨17, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x3 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S3_S1x3 : S3.ShapeCasts S1x3
  shapeCasts_S2000x256_S2000x256 : S2000x256.ShapeCasts S2000x256
  inb_S256x3_S256x3_0_0 : ∀ a, (![0, 0] : Fin 2 → Nat) a + S256x3.size a ≤ S256x3.size a
  h_S256x3 : 0 < S256x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x256_S2000x256_1_0_0_1_n_n_wf : DotDims.WF S2000x128 S128x256 S2000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S2000x256_S256x3_S2000x3_1_0_0_1_n_n_wf : DotDims.WF S2000x256 S256x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x3.size a ≤ S256x3.size a
  hwx1_2 : ∀ i : grid1.Coords, EltTy.bits .f32 = 32 ∨ (Rect.block (s := S256x3) S256x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x3.size a ≤ S1x3.size a
  hwx1_3 : ∀ i : grid1.Coords, EltTy.bits .f32 = 32 ∨ (Rect.block (s := S1x3) S1x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x3.size a ≤ S256x3.size a
  hwx1_4 : ∀ i : grid1.Coords, EltTy.bits .f32 = 32 ∨ (Rect.block (s := S256x3) S256x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x3.size a ≤ S50000x3.size a
  hwx1_5 : ∀ i : grid1.Coords, EltTy.bits .f32 = 32 ∨ (Rect.block (s := S50000x3) S2000x3.size (cc1_transform_5 i) (hinb1_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S2000x256_S256x3_S2000x3_1_0_0_1_n_n : DotDims S2000x256 S256x3 S2000x3 where
  lhsContracting := [1]
  rhsContracting := [0]
  lhsNonContracting := [0]
  rhsNonContracting := [1]
  lhsBatch := []
  rhsBatch := []
  wf := dot_S2000x256_S256x3_S2000x3_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x3.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x3 : Shape := ⟨2, ![256, 3]⟩
abbrev S3 : Shape := ⟨1, ![3]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S640000x256 : Shape := ⟨2, ![640000, 256]⟩
abbrev S50000x3 : Shape := ⟨2, ![50000, 3]⟩
abbrev S1x3 : Shape := ⟨2, ![1, 3]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x3, .f32⟩
  | .hbm, ⟨6, _⟩ => ⟨S3, .f32⟩
  | .hbm, ⟨7, _⟩ => ⟨S256x3, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x256, .f32⟩
  | .hbm, ⟨55, _⟩ => ⟨S_, .f32⟩
  | .hbm, ⟨56, _⟩ => ⟨S50000x256, .f32⟩
  | .hbm, ⟨57, _⟩ => ⟨S640000x1, .i32⟩
  | .hbm, ⟨58, _⟩ => ⟨S50000x256, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S50000, .f32⟩
  | .hbm, ⟨63, _⟩ => ⟨S640000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x3, .f32⟩
  | .hbm, ⟨72, _⟩ => ⟨S1x3, .f32⟩
  | .hbm, ⟨73, _⟩ => ⟨S50000x3, .f32⟩
  | .hbm, ⟨74, _⟩ => ⟨S50000x3, .f32⟩
  | .hbm, ⟨75, _⟩ => ⟨S50000x3, .f32⟩
  | .hbm, ⟨76, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x256_S50000x256_1_0_0_1_n_n_wf : DotDims.WF S50000x128 S128x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x3_S50000x3_1_0_0_1_n_n_wf : DotDims.WF S50000x256 S256x3 S50000x3 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x3_S50000x3_1_0_0_1_n_n : DotDims S50000x256 S256x3 S50000x3 where
  lhsContracting := [1]
  rhsContracting := [0]
  lhsNonContracting := [0]
  rhsNonContracting := [1]
  lhsBatch := []
  rhsBatch := []
  wf := dot_S50000x256_S256x3_S50000x3_1_0_0_1_n_n_wf

class Facts : Prop extends Facts₀ where

variable [Facts]
-- ==== Proof.KernelRun.lean ====
/-
  The idealized kernel program's run, with its result array named.

  The program is four stretches in order: host operations, the first dense kernel's grid, host operations, the second
  dense kernel's grid. The buffer contents at the four boundaries are a fold from the launch memory; after the last
  stretch every unscoped buffer holds the last boundary's contents. So the result buffer ends at the last boundary's
  contents there, and the argument buffers end as launched.
-/
import proofs.«152852_j31001073943304_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.SageLayer.lean ====
/-
  One GraphSAGE layer's linear part at an output entry, over the extended reals, independent of any program.

  For node p and output channel q the layer adds three numbers: the neighbour mean's row p against column q of the
  left weight, the bias entry of channel q, and the node's own row p against column q of the right weight:
      (∑ₖ mean (p, k) · wl (k, q)) + b_q + ∑ₖ x (p, k) · wr (k, q).
  Addition on the extended reals is commutative and associative, so the order in which a program adds the three numbers
  does not matter; `hidden_comm` records the one rearrangement used here.
-/
import Idealize.ShloMosaic.Lib.ValueIdx
import Idealize.ShloMosaic.PureOps.Ideal

noncomputable section

namespace Cert.Sage

open Idealize.ShloMosaic Idealize.ShloMosaic.ValueIdx

/-- The float word 0.0 read as an extended real. -/
abbrev zero32 : EReal := FloatOps.ofBits (F := Ideal) .f32 0x00000000#32

/-- The layer's linear part at (p, q): mean-row · left-weight column, plus the bias entry, plus own-row · right-weight column. -/
def hidden {N K D : Nat} (mean x : (⟨2, ![N, K]⟩ : Shape).Idx → EReal) (wl wr : (⟨2, ![K, D]⟩ : Shape).Idx → EReal)
    (bq : EReal) (p : Fin N) (q : Fin D) : EReal :=
  (∑ k : Fin K, mean (ix2 p k) * wl (ix2 k q)) + bq + ∑ k : Fin K, x (ix2 p k) * wr (ix2 k q)

/-- Adding the bias last instead of second gives the same number. -/
theorem hidden_comm {N K D : Nat} (mean x : (⟨2, ![N, K]⟩ : Shape).Idx → EReal) (wl wr : (⟨2, ![K, D]⟩ : Shape).Idx → EReal)
    (bq : EReal) (p : Fin N) (q : Fin D) :
    (∑ k : Fin K, mean (ix2 p k) * wl (ix2 k q)) + (∑ k : Fin K, x (ix2 p k) * wr (ix2 k q)) + bq
      = hidden mean x wl wr bq p q := by
  unfold hidden
  exact add_right_comm _ _ _

end Cert.Sage

end
-- ==== Proof.KernelPayload.lean ====
/-
  What each of the two dense kernels stores, read at one entry of its block, over the extended reals.

  The body rounds its four operands to bf16 (the identity on extended reals), multiplies the mean block by the left
  weight and the node block by the right weight into zero accumulators, adds the two products, adds the bias row
  broadcast down the block, and (first layer only) takes the maximum with 0. At block entry (p, q) that is the layer's
  linear part `Cert.Sage.hidden` of the blocks, with the bias read at (0, q).
-/
import proofs.«152852_j31001073943304_1_alg».proof.Proof.Gen.KernelIdeal.Skeleton
import proofs.«152852_j31001073943304_1_alg».proof.Proof.LibPlainDot
import proofs.«152852_j31001073943304_1_alg».proof.Proof.SageLayer
import Idealize.ShloMosaic.Lib.Pipeline.Value
import Idealize.ShloMosaic.Lib.ValueLayout

noncomputable section

namespace Cert.Sage

open Idealize.ShloMosaic Idealize.ShloMosaic.ValueIdx Cert.KernelIdeal Cert.KernelIdeal.Gen

/-- First layer's stored block at (p, q): max of the linear part with 0. -/
theorem pay0_apply (v0 v3 : Vec Ideal S2000x128 .f32) (v5 v7 : Vec Ideal S128x256 .f32) (v12 : Vec Ideal S1x256 .f32)
    (p : Fin 2000) (q : Fin 256) :
    k0_pay1 (F := Ideal) v0 v3 v5 v7 v12 (ix2 p q)
      = max (hidden v0 v3 v5 v7 (v12 (ix2 (0 : Fin 1) q)) p q) zero32 := by
  unfold k0_pay1
  rw [shapeCast_self, shapeCast_self]
  have hl : matmul (F := Ideal) dot_S2000x128_S128x256_S2000x256_1_0_0_1_n_n none (truncf .bf16 v0 bitsLt_bf16_f32)
        (truncf .bf16 v5 bitsLt_bf16_f32) (constant (F := Ideal) S2000x256 .f32 0x00000000#32) (ix2 p q)
      = ∑ k : Fin 128, v0 (ix2 p k) * v5 (ix2 k q) :=
    Cert.Lib.matmul_zero_apply dot_S2000x128_S128x256_S2000x256_1_0_0_1_n_n_wf none _ _ p q
  have hr : matmul (F := Ideal) dot_S2000x128_S128x256_S2000x256_1_0_0_1_n_n none (truncf .bf16 v3 bitsLt_bf16_f32)
        (truncf .bf16 v7 bitsLt_bf16_f32) (constant (F := Ideal) S2000x256 .f32 0x00000000#32) (ix2 p q)
      = ∑ k : Fin 128, v3 (ix2 p k) * v7 (ix2 k q) :=
    Cert.Lib.matmul_zero_apply dot_S2000x128_S128x256_S2000x256_1_0_0_1_n_n_wf none _ _ p q
  have hb : broadcastTo S2000x256 v12 broadcasts_S1x256_S2000x256 (ix2 p q) = v12 (ix2 (0 : Fin 1) q) :=
    broadcastTo_1b_ab_apply v12 broadcasts_S1x256_S2000x256 p q
  rw [← hidden_comm, ← hl, ← hr, ← hb]
  rfl

/-- Second layer's stored block at (p, q): the linear part. -/
theorem pay1_apply (v0 v3 : Vec Ideal S2000x256 .f32) (v6 v8 : Vec Ideal S256x3 .f32) (v13 : Vec Ideal S1x3 .f32)
    (p : Fin 2000) (q : Fin 3) :
    k1_pay1 (F := Ideal) v0 v3 v6 v8 v13 (ix2 p q)
      = hidden v0 v3 v6 v8 (v13 (ix2 (0 : Fin 1) q)) p q := by
  unfold k1_pay1
  rw [shapeCast_self, shapeCast_self, shapeCast_self]
  have hl : matmul (F := Ideal) dot_S2000x256_S256x3_S2000x3_1_0_0_1_n_n none (truncf .bf16 v0 bitsLt_bf16_f32)
        (truncf .bf16 v6 bitsLt_bf16_f32) (constant (F := Ideal) S2000x3 .f32 0x00000000#32) (ix2 p q)
      = ∑ k : Fin 256, v0 (ix2 p k) * v6 (ix2 k q) :=
    Cert.Lib.matmul_zero_apply dot_S2000x256_S256x3_S2000x3_1_0_0_1_n_n_wf none _ _ p q
  have hr : matmul (F := Ideal) dot_S2000x256_S256x3_S2000x3_1_0_0_1_n_n none (truncf .bf16 v3 bitsLt_bf16_f32)
        (truncf .bf16 v8 bitsLt_bf16_f32) (constant (F := Ideal) S2000x3 .f32 0x00000000#32) (ix2 p q)
      = ∑ k : Fin 256, v3 (ix2 p k) * v8 (ix2 k q) :=
    Cert.Lib.matmul_zero_apply dot_S2000x256_S256x3_S2000x3_1_0_0_1_n_n_wf none _ _ p q
  have hb : broadcastTo S2000x3 v13 broadcasts_S1x3_S2000x3 (ix2 p q) = v13 (ix2 (0 : Fin 1) q) :=
    broadcastTo_1b_ab_apply v13 broadcasts_S1x3_S2000x3 p q
  rw [← hidden_comm, ← hl, ← hr, ← hb]
  rfl

end Cert.Sage

end
-- ==== Proof.Region0.lean ====
/-
  The first dense kernel's result array, as one function of the arrays its region finds.

  The grid has 25 points; point t's block is rows 2000·t … 2000·t + 1999 of the 256-column result. The mean block and
  the node block of point t are the same rows of their arrays, all 128 columns; the two weight matrices and the bias
  row are read whole at every point. An entry of a block is the body's payload of the point's input blocks, which is
  the layer's linear part of those blocks; since a row's linear part reads only that row of the mean and of the node
  features, it is the linear part of the whole arrays at the entry's place in the result. Every row lies in the block
  of the point row / 2000, so after the last write-back the result array holds that function everywhere.
-/
import proofs.«152852_j31001073943304_1_alg».proof.Proof.Gen.KernelIdeal.Frame
import proofs.«152852_j31001073943304_1_alg».proof.Proof.KernelPayload
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The result array as one function of the arrays the region finds: at (r, q) the layer's linear part of the whole
    mean and node arrays, cut below at 0. -/
def whole (c : Dev nD) : S50000x256.Idx → EReal := fun i =>
  max (hidden (N := 50000) (K := 128) (D := 256) (V c main_v22) (V c main_arg0) (V c main_arg2) (V c main_arg4) (V c main_v23 (ix2 (0 : Fin 1) (i 1))) (i 0) (i 1)) zero32

theorem zeros : (![0, 0] : Fin 2 → Nat) = fun _ => 0 := funext fun a => by fin_cases a <;> rfl

/-- The printed index maps over the grid: the mean, node and result blocks of point t are row-block t, column-block 0;
    the weights and the bias are block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's payload at a block entry, with the entry's coordinates read off the index. -/
theorem payload_entry (x0 x1 : Vec Ideal S2000x128 .f32) (x2 x4 : Vec Ideal S128x256 .f32) (x3 : Vec Ideal S1x256 .f32)
    (j : S2000x256.Idx) :
    k0_pay1 (F := Ideal) x0 x1 x2 x4 x3 j
      = max (hidden x0 x1 x2 x4 (x3 (ix2 (0 : Fin 1) (j 1))) (j 0) (j 1)) zero32 := by
  exact (congrArg (k0_pay1 (F := Ideal) x0 x1 x2 x4 x3) (eq_ix2 j)).trans (pay0_apply x0 x1 x2 x4 x3 (j 0) (j 1))

/-- WHAT POINT t WRITES BACK is block t of `whole`. -/
theorem flushed_eq (c : Dev nD) (t : Fin cfg0.N) :
    (dat0 (F := Ideal) V c).flushed 5 t = ((cfg0.win 5).blk t).view.read (Elt Ideal) (whole V c) := by
  show (cfg0.win 5).cut (grid0.coords t) ((dat0 (F := Ideal) V c).after 5 t) = _
  rw [after0_5]
  unfold out0_5
  rw [View.canon_unit_zero zeros]
  simp only [View.ld_unit_zero (S := S2000x128) zeros, View.ld_unit_zero (S := S128x256) zeros, View.ld_unit_zero (S := S1x256) zeros]
  obtain ⟨e00, e01, e10, e11, e20, e21, e30, e31, e40, e41, e50, e51⟩ := index_maps t
  funext j
  show k0_pay1 (F := Ideal) (iblk0 V c 0 t) (iblk0 V c 1 t) (iblk0 V c 2 t) (iblk0 V c 4 t) (iblk0 V c 3 t) j
    = whole V c (((cfg0.win 5).blk t).view.emb j)
  rw [payload_entry]
  unfold whole hidden
  have hj0 : (j 0).val < 2000 := (j 0).isLt
  have hj1 : (j 1).val < 256 := (j 1).isLt
  have r0 : ∀ k : Fin 128, iblk0 V c 0 t (ix2 (j 0) k) = V c main_v22 (ix2 ((((cfg0.win 5).blk t).view.emb j) 0) k) := fun k => by
    show V c main_v22 (((cfg0.win 0).blk t).view.emb (ix2 (j 0) k)) = _
    refine congrArg _ (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  have r1 : ∀ k : Fin 128, iblk0 V c 1 t (ix2 (j 0) k) = V c main_arg0 (ix2 ((((cfg0.win 5).blk t).view.emb j) 0) k) := fun k => by
    show V c main_arg0 (((cfg0.win 1).blk t).view.emb (ix2 (j 0) k)) = _
    refine congrArg _ (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  have r2 : ∀ k : Fin 128, iblk0 V c 2 t (ix2 k (j 1)) = V c main_arg2 (ix2 k ((((cfg0.win 5).blk t).view.emb j) 1)) := fun k => by
    show V c main_arg2 (((cfg0.win 2).blk t).view.emb (ix2 k (j 1))) = _
    refine congrArg _ (funext fun a => Fin.ext ?_)
    match a with
    | ⟨0, _⟩ => show win0_2.index t (0 : Fin 2) * 128 + 1 * k.val = k.val; omega
    | ⟨1, _⟩ => show win0_2.index t (1 : Fin 2) * 256 + 1 * (j 1).val = win0_5.index t (1 : Fin 2) * 256 + 1 * (j 1).val; omega
  have r4 : ∀ k : Fin 128, iblk0 V c 4 t (ix2 k (j 1)) = V c main_arg4 (ix2 k ((((cfg0.win 5).blk t).view.emb j) 1)) := fun k => by
    show V c main_arg4 (((cfg0.win 4).blk t).view.emb (ix2 k (j 1))) = _
    refine congrArg _ (funext fun a => Fin.ext ?_)
    match a with
    | ⟨0, _⟩ => show win0_4.index t (0 : Fin 2) * 128 + 1 * k.val = k.val; omega
    | ⟨1, _⟩ => show win0_4.index t (1 : Fin 2) * 256 + 1 * (j 1).val = win0_5.index t (1 : Fin 2) * 256 + 1 * (j 1).val; omega
  have r3 : iblk0 V c 3 t (ix2 (0 : Fin 1) (j 1)) = V c main_v23 (ix2 (0 : Fin 1) ((((cfg0.win 5).blk t).view.emb j) 1)) := by
    show V c main_v23 (((cfg0.win 3).blk t).view.emb (ix2 (0 : Fin 1) (j 1))) = _
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * (j 1).val = win0_5.index t (1 : Fin 2) * 256 + 1 * (j 1).val; omega
  simp only [r0, r1, r2, r3, r4]

/-- An index of the result array is in point t's block iff each coordinate is in the block's range on its axis. -/
theorem mem_block (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- Every entry of the result array is in the block of the point row / 2000. -/
theorem covered (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : grid0.N = 25 := N_0
  let t : Fin cfg0.N := ⟨(i 0).val / 2000, by show (i 0).val / 2000 < grid0.N; omega⟩
  obtain ⟨e00, e01, e10, e11, e20, e21, e30, e31, e40, e41, e50, e51⟩ := index_maps t
  have ht : t.val = (i 0).val / 2000 := rfl
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE RESULT ARRAY after the region's last write-back is `whole` of the arrays the region found. -/
theorem array_eq (c : Dev nD) : (dat0 (F := Ideal) V c).arrAt 5 cfg0.N = whole V c :=
  (dat0 (F := Ideal) V c).arrAt_eq_of_cover 5 (whole V c) (fun t _ => flushed_eq V c t) (covered)

end Cert.Sage.Region0

end
-- ==== Proof.Region1.lean ====
/-
  The second dense kernel's result array, as one function of the arrays its region finds.

  The grid has 25 points; point t's block is rows 2000·t … 2000·t + 1999 of the 3-column result. The mean block and
  the node block of point t are the same rows of their arrays, all 256 columns; the two weight matrices and the bias
  row are read whole at every point. An entry of a block is the body's payload of the point's input blocks, which is
  the layer's linear part of those blocks; since a row's linear part reads only that row of the mean and of the node
  features, it is the linear part of the whole arrays at the entry's place in the result. Every row lies in the block
  of the point row / 2000, so after the last write-back the result array holds that function everywhere.
-/
import proofs.«152852_j31001073943304_1_alg».proof.Proof.Gen.KernelIdeal.Frame
import proofs.«152852_j31001073943304_1_alg».proof.Proof.KernelPayload
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The result array as one function of the arrays the region finds: at (r, q) the layer's linear part of the whole
    mean and node arrays. -/
def whole (c : Dev nD) : S50000x3.Idx → EReal := fun i =>
  hidden (N := 50000) (K := 256) (D := 3) (V c main_v43) (V c main_v24) (V c main_arg5) (V c main_arg7) (V c main_v44 (ix2 (0 : Fin 1) (i 1))) (i 0) (i 1)

theorem zeros : (![0, 0] : Fin 2 → Nat) = fun _ => 0 := funext fun a => by fin_cases a <;> rfl

/-- The printed index maps over the grid: the mean, node and result blocks of point t are row-block t, column-block 0;
    the weights and the bias are block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's payload at a block entry, with the entry's coordinates read off the index. -/
theorem payload_entry (x0 x1 : Vec Ideal S2000x256 .f32) (x2 x4 : Vec Ideal S256x3 .f32) (x3 : Vec Ideal S1x3 .f32)
    (j : S2000x3.Idx) :
    k1_pay1 (F := Ideal) x0 x1 x2 x4 x3 j
      = hidden x0 x1 x2 x4 (x3 (ix2 (0 : Fin 1) (j 1))) (j 0) (j 1) := by
  exact (congrArg (k1_pay1 (F := Ideal) x0 x1 x2 x4 x3) (eq_ix2 j)).trans (pay1_apply x0 x1 x2 x4 x3 (j 0) (j 1))

/-- WHAT POINT t WRITES BACK is block t of `whole`. -/
theorem flushed_eq (c : Dev nD) (t : Fin cfg1.N) :
    (dat1 (F := Ideal) V c).flushed 5 t = ((cfg1.win 5).blk t).view.read (Elt Ideal) (whole V c) := by
  show (cfg1.win 5).cut (grid1.coords t) ((dat1 (F := Ideal) V c).after 5 t) = _
  rw [after1_5]
  unfold out1_5
  rw [View.canon_unit_zero zeros]
  simp only [View.ld_unit_zero (S := S2000x256) zeros, View.ld_unit_zero (S := S256x3) zeros, View.ld_unit_zero (S := S1x3) zeros]
  obtain ⟨e00, e01, e10, e11, e20, e21, e30, e31, e40, e41, e50, e51⟩ := index_maps t
  funext j
  show k1_pay1 (F := Ideal) (iblk1 V c 0 t) (iblk1 V c 1 t) (iblk1 V c 2 t) (iblk1 V c 4 t) (iblk1 V c 3 t) j
    = whole V c (((cfg1.win 5).blk t).view.emb j)
  rw [payload_entry]
  unfold whole hidden
  have hj0 : (j 0).val < 2000 := (j 0).isLt
  have hj1 : (j 1).val < 3 := (j 1).isLt
  have r0 : ∀ k : Fin 256, iblk1 V c 0 t (ix2 (j 0) k) = V c main_v43 (ix2 ((((cfg1.win 5).blk t).view.emb j) 0) k) := fun k => by
    show V c main_v43 (((cfg1.win 0).blk t).view.emb (ix2 (j 0) k)) = _
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * k.val = k.val; omega
  have r1 : ∀ k : Fin 256, iblk1 V c 1 t (ix2 (j 0) k) = V c main_v24 (ix2 ((((cfg1.win 5).blk t).view.emb j) 0) k) := fun k => by
    show V c main_v24 (((cfg1.win 1).blk t).view.emb (ix2 (j 0) k)) = _
    refine congrArg _ (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 256 + 1 * k.val = k.val; omega
  have r2 : ∀ k : Fin 256, iblk1 V c 2 t (ix2 k (j 1)) = V c main_arg5 (ix2 k ((((cfg1.win 5).blk t).view.emb j) 1)) := fun k => by
    show V c main_arg5 (((cfg1.win 2).blk t).view.emb (ix2 k (j 1))) = _
    refine congrArg _ (funext fun a => Fin.ext ?_)
    match a with
    | ⟨0, _⟩ => show win1_2.index t (0 : Fin 2) * 256 + 1 * k.val = k.val; omega
    | ⟨1, _⟩ => show win1_2.index t (1 : Fin 2) * 3 + 1 * (j 1).val = win1_5.index t (1 : Fin 2) * 3 + 1 * (j 1).val; omega
  have r4 : ∀ k : Fin 256, iblk1 V c 4 t (ix2 k (j 1)) = V c main_arg7 (ix2 k ((((cfg1.win 5).blk t).view.emb j) 1)) := fun k => by
    show V c main_arg7 (((cfg1.win 4).blk t).view.emb (ix2 k (j 1))) = _
    refine congrArg _ (funext fun a => Fin.ext ?_)
    match a with
    | ⟨0, _⟩ => show win1_4.index t (0 : Fin 2) * 256 + 1 * k.val = k.val; omega
    | ⟨1, _⟩ => show win1_4.index t (1 : Fin 2) * 3 + 1 * (j 1).val = win1_5.index t (1 : Fin 2) * 3 + 1 * (j 1).val; omega
  have r3 : iblk1 V c 3 t (ix2 (0 : Fin 1) (j 1)) = V c main_v44 (ix2 (0 : Fin 1) ((((cfg1.win 5).blk t).view.emb j) 1)) := by
    show V c main_v44 (((cfg1.win 3).blk t).view.emb (ix2 (0 : Fin 1) (j 1))) = _
    refine congrArg _ (funext fun a => Fin.ext ?_)
    match a with
    | ⟨0, _⟩ => show win1_3.index t (0 : Fin 2) * 1 + 1 * 0 = 0; omega
    | ⟨1, _⟩ => show win1_3.index t (1 : Fin 2) * 3 + 1 * (j 1).val = win1_5.index t (1 : Fin 2) * 3 + 1 * (j 1).val; omega
  simp only [r0, r1, r2, r3, r4]

/-- An index of the result array is in point t's block iff each coordinate is in the block's range on its axis. -/
theorem mem_block (t : Fin cfg1.N) (i : S50000x3.Idx) :
    i ∈ ((cfg1.win 5).blk t).view.set ↔ ∀ a : Fin 2, win1_5.index t a * S2000x3.size a ≤ (i a).val ∧ (i a).val < win1_5.index t a * S2000x3.size a + S2000x3.size a := by
  show i ∈ ((View.whole main_v45).slice (win1_5.rect t)).set ↔ _
  rw [View.set_slice_whole, Rect.mem_set_unit]
  exact Iff.rfl

/-- Every entry of the result array is in the block of the point row / 2000. -/
theorem covered (i : S50000x3.Idx) :
    ∃ t : Fin cfg1.N, (cfg1.win 5).flush t = true ∧ i ∈ ((cfg1.win 5).blk t).view.set := by
  have hi0 : (i 0).val < 50000 := (i 0).isLt
  have hi1 : (i 1).val < 3 := (i 1).isLt
  have hN : grid1.N = 25 := N_1
  let t : Fin cfg1.N := ⟨(i 0).val / 2000, by show (i 0).val / 2000 < grid1.N; omega⟩
  obtain ⟨e00, e01, e10, e11, e20, e21, e30, e31, e40, e41, e50, e51⟩ := index_maps t
  have ht : t.val = (i 0).val / 2000 := rfl
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 3 ≤ (i 1).val ∧ (i 1).val < win1_5.index t (1 : Fin 2) * 3 + 3; omega

/-- THE RESULT ARRAY after the region's last write-back is `whole` of the arrays the region found. -/
theorem array_eq (c : Dev nD) : (dat1 (F := Ideal) V c).arrAt 5 cfg1.N = whole V c :=
  (dat1 (F := Ideal) V c).arrAt_eq_of_cover 5 (whole V c) (fun t _ => flushed_eq V c t) (covered)

end Cert.Sage.Region1

end
-- ==== Proof.HostSide.lean ====
/-
  What the two dense kernels find in their input arrays.

  Before the first kernel the host computes the neighbour mean of the features (gather the source rows, scatter-add
  them at the destinations, divide by the in-degree, at least 1) and lays the first bias out as a row. Between the
  kernels it computes the neighbour mean of the first kernel's result with the same edge lists and lays the second bias
  out as a row. No host operation and no kernel writes an argument array. The neighbour-mean stretches are the
  reference's own operations, so they are stated through the reference's stages and never opened.
-/
import proofs.«152852_j31001073943304_1_alg».proof.Proof.Gen.KernelIdeal.Frame
import proofs.«152852_j31001073943304_1_alg».proof.Proof.Gen.ReferenceIdeal.Read
import Idealize.ShloMosaic.Lib.StableHlo.Run
import Idealize.ShloMosaic.Lib.Pipeline.Value

set_option maxRecDepth 16384

noncomputable section

namespace Cert.Sage.Host

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## Before the first kernel -/

/-- The first kernel's mean operand is the reference's neighbour mean of the features. -/
theorem mean0_eq (c : Dev nD) :
    V1 m ρ c main_v22 = Cert.ReferenceIdeal.Read.val_main_v22 (F := Ideal) (m ((c.tc : Thread nD τ).loc main_arg0)) (m ((c.tc : Thread nD τ).loc main_arg1)) := by
  show StableHlo.after hostOps0 (W0 m ρ c) (Proc.devRef .tc main_v22) = _
  after_results_simp
  rfl

/-- The first kernel's bias row at (0, q) is the bias vector at q. -/
theorem bias0_eq (c : Dev nD) (q : Fin 256) :
    V1 m ρ c main_v23 (ix2 (0 : Fin 1) q) = m ((c.tc : Thread nD τ).loc main_arg3) (ix1 q) := by
  show StableHlo.after hostOps0 (W0 m ρ c) (Proc.devRef .tc main_v23) (ix2 (0 : Fin 1) q) = _
  after_results_simp
  refine (shapeCast_apply _ _ (ix2 (0 : Fin 1) q) (ix1 q) ?_).trans rfl
  rw [Shape.rowMajor_val_one, Shape.rowMajor_val_two]
  show q.val = 0 * 256 + q.val
  omega

theorem x_eq1 (c : Dev nD) : V1 m ρ c main_arg0 = m ((c.tc : Thread nD τ).loc main_arg0) := by
  show StableHlo.after hostOps0 (W0 m ρ c) (Proc.devRef .tc main_arg0) = _
  after_results_simp <;> rfl
theorem wl0_eq1 (c : Dev nD) : V1 m ρ c main_arg2 = m ((c.tc : Thread nD τ).loc main_arg2) := by
  show StableHlo.after hostOps0 (W0 m ρ c) (Proc.devRef .tc main_arg2) = _
  after_results_simp <;> rfl
theorem wr0_eq1 (c : Dev nD) : V1 m ρ c main_arg4 = m ((c.tc : Thread nD τ).loc main_arg4) := by
  show StableHlo.after hostOps0 (W0 m ρ c) (Proc.devRef .tc main_arg4) = _
  after_results_simp <;> rfl

/-! ## Between the kernels -/

/-- The neighbour mean of a hidden activation `h` over the edge lists `e`, in the reference's own operations. -/
def mean1 (h : FVec Ideal Cert.ReferenceIdeal.S50000x256 .f32)
    (e : (⟨Cert.ReferenceIdeal.S2x640000, .i32⟩ : BufTy).Contents (Elt Ideal)) :
    FVec Ideal Cert.ReferenceIdeal.S50000x256 .f32 :=
  Host.divf (F := Ideal)
    (Host.scatterAdd (F := Ideal) Cert.ReferenceIdeal.scatter_S50000x256_S640000x1_S640000x256_1_0_0_1 (Cert.ReferenceIdeal.Read.val_main_v37 (F := Ideal))
      (Cert.ReferenceIdeal.Read.val_main_v38 (F := Ideal) e)
      (Host.gather Cert.ReferenceIdeal.gather_S50000x256_S640000x1_S640000x256_1_0_n_n_0_1_1256 h (Cert.ReferenceIdeal.Read.val_main_v35 (F := Ideal) e)))
    (Cert.ReferenceIdeal.Read.val_main_v47 (F := Ideal) e)

/-- The reference's second neighbour mean is `mean1` of its hidden activation. -/
theorem ref_mean1 (x0 : (⟨Cert.ReferenceIdeal.S50000x128, .f32⟩ : BufTy).Contents (Elt Ideal)) (x1 : (⟨Cert.ReferenceIdeal.S2x640000, .i32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal))
    (x4 : (⟨Cert.ReferenceIdeal.S128x256, .f32⟩ : BufTy).Contents (Elt Ideal)) :
    Cert.ReferenceIdeal.Read.val_main_v48 (F := Ideal) x0 x1 x2 x3 x4 = mean1 (Cert.ReferenceIdeal.Read.val_main_v29 (F := Ideal) x0 x1 x2 x3 x4) x1 := rfl

/-- The source edge list as the second stretch finds it. -/
theorem src_eq2 (c : Dev nD) :
    W2 m ρ c (Proc.devRef .tc main_v1) = Cert.ReferenceIdeal.Read.val_main_v1 (F := Ideal) (m ((c.tc : Thread nD τ).loc main_arg1)) := by
  refine (W2_of_ne m ρ c main_v1 (by decide)).trans ?_
  show StableHlo.after hostOps0 (W0 m ρ c) (Proc.devRef .tc main_v1) = _
  after_results_simp
  rfl
/-- The destination edge list as the second stretch finds it. -/
theorem dst_eq2 (c : Dev nD) :
    W2 m ρ c (Proc.devRef .tc main_v3) = Cert.ReferenceIdeal.Read.val_main_v3 (F := Ideal) (m ((c.tc : Thread nD τ).loc main_arg1)) := by
  refine (W2_of_ne m ρ c main_v3 (by decide)).trans ?_
  show StableHlo.after hostOps0 (W0 m ρ c) (Proc.devRef .tc main_v3) = _
  after_results_simp
  rfl

/-- The second kernel's mean operand is `mean1` of the first kernel's result. -/
theorem mean1_eq (c : Dev nD) :
    V3 m ρ c main_v43 = mean1 (V2 m ρ c main_v24) (m ((c.tc : Thread nD τ).loc main_arg1)) := by
  show StableHlo.after hostOps1 (W2 m ρ c) (Proc.devRef .tc main_v43) = _
  after_results_simp
  rw [src_eq2, dst_eq2]
  rfl

/-- The second kernel's node operand is the first kernel's result. -/
theorem h_eq3 (c : Dev nD) : V3 m ρ c main_v24 = V2 m ρ c main_v24 := by
  show StableHlo.after hostOps1 (W2 m ρ c) (Proc.devRef .tc main_v24) = _
  after_results_simp <;> rfl

/-- An argument array as the second stretch finds it. -/
theorem arg_eq2 (c : Dev nD) (r : Ref sig .tc) (h0 : ∀ w, Pipeline.arrRef spec0 w ≠ r)
    (h1 : StableHlo.after hostOps0 (W0 m ρ c) (Proc.devRef .tc r) = m ((c.tc : Thread nD τ).loc r)) :
    W2 m ρ c (Proc.devRef .tc r) = m ((c.tc : Thread nD τ).loc r) :=
  (W2_of_ne m ρ c r h0).trans h1

/-- The second kernel's bias row at (0, q) is the bias vector at q. -/
theorem bias1_eq (c : Dev nD) (q : Fin 3) :
    V3 m ρ c main_v44 (ix2 (0 : Fin 1) q) = m ((c.tc : Thread nD τ).loc main_arg6) (ix1 q) := by
  show StableHlo.after hostOps1 (W2 m ρ c) (Proc.devRef .tc main_v44) (ix2 (0 : Fin 1) q) = _
  after_results_simp
  rw [arg_eq2 m ρ c main_arg6 (by decide) (by after_results_simp <;> rfl)]
  refine (shapeCast_apply _ _ (ix2 (0 : Fin 1) q) (ix1 q) ?_).trans rfl
  rw [Shape.rowMajor_val_one, Shape.rowMajor_val_two]
  show q.val = 0 * 3 + q.val
  omega

theorem wl1_eq3 (c : Dev nD) : V3 m ρ c main_arg5 = m ((c.tc : Thread nD τ).loc main_arg5) := by
  show StableHlo.after hostOps1 (W2 m ρ c) (Proc.devRef .tc main_arg5) = _
  after_results_simp
  exact arg_eq2 m ρ c main_arg5 (by decide) (by after_results_simp <;> rfl)
theorem wr1_eq3 (c : Dev nD) : V3 m ρ c main_arg7 = m ((c.tc : Thread nD τ).loc main_arg7) := by
  show StableHlo.after hostOps1 (W2 m ρ c) (Proc.devRef .tc main_arg7) = _
  after_results_simp
  exact arg_eq2 m ρ c main_arg7 (by decide) (by after_results_simp <;> rfl)

end Cert.Sage.Host

end
-- ==== Proof.RefLayers.lean ====
/-
  The reference's two layers read at one entry, over the extended reals.

  The hidden activation at (p, q) is the maximum with 0 of the first layer's linear part of the neighbour mean of the
  features; the result at (p, q) is the second layer's linear part of the neighbour mean of the hidden activation and of
  the hidden activation itself. The reference adds the bias second, which is how `Cert.Sage.hidden` is written.
-/
import proofs.«152852_j31001073943304_1_alg».proof.Proof.Gen.ReferenceIdeal.Read
import proofs.«152852_j31001073943304_1_alg».proof.Proof.SageLayer

noncomputable section

namespace Cert.Sage

open Idealize.ShloMosaic Idealize.ShloMosaic.ValueIdx Cert.ReferenceIdeal Cert.ReferenceIdeal.Read

/-- The hidden activation at (p, q). -/
theorem ref_hidden_apply (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) (p : Fin 50000) (q : Fin 256) :
    val_main_v29 (F := Ideal) x0 x1 x2 x3 x4 (ix2 p q)
      = max (hidden (val_main_v22 (F := Ideal) x0 x1) x0 x2 x4 (x3 (ix1 q)) p q) zero32 := by
  have el : ∀ k : Fin 128, lidx_main_v23 (ix2 p q) k = ix2 p k := fun k =>
    funext fun a => Fin.ext (by match a with | ⟨0, _⟩ => rfl | ⟨1, _⟩ => rfl)
  have er : ∀ k : Fin 128, ridx_main_v23 (ix2 p q) k = ix2 k q := fun k =>
    funext fun a => Fin.ext (by match a with | ⟨0, _⟩ => rfl | ⟨1, _⟩ => rfl)
  have el' : ∀ k : Fin 128, lidx_main_v27 (ix2 p q) k = ix2 p k := fun k =>
    funext fun a => Fin.ext (by match a with | ⟨0, _⟩ => rfl | ⟨1, _⟩ => rfl)
  have er' : ∀ k : Fin 128, ridx_main_v27 (ix2 p q) k = ix2 k q := fun k =>
    funext fun a => Fin.ext (by match a with | ⟨0, _⟩ => rfl | ⟨1, _⟩ => rfl)
  have eb : idx_main_v24 (idx_main_v25 (ix2 p q)) = ix1 q :=
    funext fun a => Fin.ext (by match a with | ⟨0, _⟩ => rfl)
  rw [val_main_v29_apply, val_main_v28_apply, val_main_v26_apply, val_main_v23_apply, val_main_v25_apply,
    val_main_v24_apply, val_main_v27_apply, val_main_call0_v0_apply, val_main_call0_cst_apply]
  simp only [el, er, el', er', eb]
  rfl

/-- The result at (p, q). -/
theorem ref_out_apply (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) (x5 : (⟨S256x3, .f32⟩ : BufTy).Contents (Elt Ideal))
    (x6 : (⟨S3, .f32⟩ : BufTy).Contents (Elt Ideal)) (x7 : (⟨S256x3, .f32⟩ : BufTy).Contents (Elt Ideal)) (p : Fin 50000) (q : Fin 3) :
    val_main_v54 (F := Ideal) x0 x1 x2 x3 x4 x5 x6 x7 (ix2 p q)
      = hidden (val_main_v48 (F := Ideal) x0 x1 x2 x3 x4) (val_main_v29 (F := Ideal) x0 x1 x2 x3 x4) x5 x7 (x6 (ix1 q)) p q := by
  have el : ∀ k : Fin 256, lidx_main_v49 (ix2 p q) k = ix2 p k := fun k =>
    funext fun a => Fin.ext (by match a with | ⟨0, _⟩ => rfl | ⟨1, _⟩ => rfl)
  have er : ∀ k : Fin 256, ridx_main_v49 (ix2 p q) k = ix2 k q := fun k =>
    funext fun a => Fin.ext (by match a with | ⟨0, _⟩ => rfl | ⟨1, _⟩ => rfl)
  have el' : ∀ k : Fin 256, lidx_main_v53 (ix2 p q) k = ix2 p k := fun k =>
    funext fun a => Fin.ext (by match a with | ⟨0, _⟩ => rfl | ⟨1, _⟩ => rfl)
  have er' : ∀ k : Fin 256, ridx_main_v53 (ix2 p q) k = ix2 k q := fun k =>
    funext fun a => Fin.ext (by match a with | ⟨0, _⟩ => rfl | ⟨1, _⟩ => rfl)
  have eb : idx_main_v50 (idx_main_v51 (ix2 p q)) = ix1 q :=
    funext fun a => Fin.ext (by match a with | ⟨0, _⟩ => rfl)
  rw [val_main_v54_apply, val_main_v52_apply, val_main_v49_apply, val_main_v51_apply, val_main_v50_apply,
    val_main_v53_apply]
  simp only [el, er, el', er', eb]
  rfl

end Cert.Sage

end
-- ==== Proof.Bridge.lean ====
/-
  The idealized kernel program's result array is the reference's result stage of the argument arrays.

  The first kernel's result is, entry by entry, the maximum with 0 of the first layer's linear part of the neighbour
  mean of the features: the reference's hidden activation. The host then takes the neighbour mean of that array with
  the reference's own operations, so the second kernel finds the reference's second neighbour mean and hidden
  activation in its operands, and its result is, entry by entry, the second layer's linear part of them: the
  reference's result.
-/
import proofs.«152852_j31001073943304_1_alg».proof.Proof.Region0
import proofs.«152852_j31001073943304_1_alg».proof.Proof.Region1
import proofs.«152852_j31001073943304_1_alg».proof.Proof.HostSide
import proofs.«152852_j31001073943304_1_alg».proof.Proof.RefLayers

set_option maxRecDepth 16384

noncomputable section

namespace Cert.Sage

open Idealize.ShloMosaic Idealize.ShloMosaic.TcCoe Idealize.ShloMosaic.ValueIdx Idealize.SL.Sem
open Cert.KernelIdeal Cert.KernelIdeal.Gen Cert.Sage.Host

variable (m : (ℓ : Loc nD τ sig) → Buf (Elt Ideal) ℓ) (ρ : Dev nD → PrngReg)

/-- The first kernel's result array is the reference's hidden activation of the arguments. -/
theorem kernel_hidden (c : Dev nD) :
    V2 m ρ c main_v24 = Cert.ReferenceIdeal.Read.val_main_v29 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine ((W2_arr m ρ c 5).trans (Region0.array_eq (V1 m ρ) c)).trans ?_
  funext i
  obtain ⟨p, q, rfl⟩ : ∃ (p : Fin 50000) (q : Fin 256), i = ix2 p q := ⟨i 0, i 1, eq_ix2 i⟩
  rw [ref_hidden_apply]
  show max (hidden (V1 m ρ c main_v22) (V1 m ρ c main_arg0) (V1 m ρ c main_arg2) (V1 m ρ c main_arg4) (V1 m ρ c main_v23 (ix2 (0 : Fin 1) q)) p q) zero32 = _
  rw [mean0_eq, x_eq1, wl0_eq1, wr0_eq1, bias0_eq]

/-- The kernel program's result array is the reference's result stage of the arguments. -/
theorem kernel_out (c : Dev nD) :
    W4 m ρ c (Proc.devRef .tc main_v45) = Cert.ReferenceIdeal.Read.val_main_v54 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  refine ((W4_arr m ρ c 5).trans (Region1.array_eq (V3 m ρ) c)).trans ?_
  funext i
  obtain ⟨p, q, rfl⟩ : ∃ (p : Fin 50000) (q : Fin 3), i = ix2 p q := ⟨i 0, i 1, eq_ix2 i⟩
  rw [ref_out_apply, ref_mean1]
  show hidden (V3 m ρ c main_v43) (V3 m ρ c main_v24) (V3 m ρ c main_arg5) (V3 m ρ c main_arg7) (V3 m ρ c main_v44 (ix2 (0 : Fin 1) q)) p q = _
  rw [mean1_eq, h_eq3, kernel_hidden, wl1_eq3, wr1_eq3, bias1_eq]

end Cert.Sage

end
-- ==== Proof.lean ====
/-
  A two-layer GraphSAGE forward pass: the kernel program against its jnp reference, over the extended reals.

  Both programs compute, per layer, the neighbour mean of the node features over the edge list (gather the source rows,
  scatter-add them at the destinations, divide by the in-degree, at least 1) and then, for node p and channel q,
      (∑ₖ mean (p, k) · Wl (k, q)) + b_q + ∑ₖ x (p, k) · Wr (k, q),
  with a maximum against 0 after the first layer. The kernel program does the neighbour means on the host with the
  reference's own operations and the dense part in two gridded kernels of 25 row blocks each (operands rounded to bf16,
  which is the identity on the extended reals; products into zero accumulators; the bias added last). The reference
  adds the bias before the second product. Addition on the extended reals is commutative and associative, so the two
  orders agree; no finiteness of the inputs is used.

  The frames of the kernel programs are the generated ones; the reference's frame is its generated run with the result
  dropped; no rewrite was applied when idealizing, so that claim is trivial; the equivalence joins the kernel program's
  run (result array named) with the reference's generated run through `Cert.Sage.kernel_out`.
-/
import proofs.«152852_j31001073943304_1_alg».proof.Defs
import proofs.«152852_j31001073943304_1_alg».proof.Proof.Gen.Kernel
import proofs.«152852_j31001073943304_1_alg».proof.Proof.Gen.Kernel.Skeleton
import proofs.«152852_j31001073943304_1_alg».proof.Proof.Gen.Kernel.Launch
import proofs.«152852_j31001073943304_1_alg».proof.Proof.Gen.Kernel.Points
import proofs.«152852_j31001073943304_1_alg».proof.Proof.Gen.Kernel.Frame
import proofs.«152852_j31001073943304_1_alg».proof.Proof.Gen.KernelIdeal
import proofs.«152852_j31001073943304_1_alg».proof.Proof.Gen.KernelIdeal.Skeleton
import proofs.«152852_j31001073943304_1_alg».proof.Proof.Gen.KernelIdeal.Launch
import proofs.«152852_j31001073943304_1_alg».proof.Proof.Gen.KernelIdeal.Points
import proofs.«152852_j31001073943304_1_alg».proof.Proof.Gen.KernelIdeal.Frame
import proofs.«152852_j31001073943304_1_alg».proof.Proof.Gen.ReferenceIdeal
import proofs.«152852_j31001073943304_1_alg».proof.Proof.Gen.ReferenceIdeal.Run
import proofs.«152852_j31001073943304_1_alg».proof.Proof.Gen.ReferenceIdeal.Read
import proofs.«152852_j31001073943304_1_alg».proof.Proof.Gen.Pre_finite_inputs
import proofs.«152852_j31001073943304_1_alg».proof.Proof.KernelRun
import proofs.«152852_j31001073943304_1_alg».proof.Proof.Bridge
import Idealize.ShloMosaic.Adequacy
import Idealize.ShloMosaic.Init

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the reference's result stage of the (agreeing) argument arrays. -/
theorem algebraic : Cert.algebraic_KernelIdeal_ReferenceIdeal := by
  intro m ρ m' ρ' _ hagree
  refine ⟨fun c => Cert.ReferenceIdeal.Read.val_main_v54 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨((h c).1).trans (Cert.Sage.kernel_out m ρ c), (h c).2⟩)
      (Cert.KernelIdeal.Whole.run (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v54_eq, a0, a1, a2, a3, a4, a5, a6, a7]

end

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
